-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg5 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x3200000 32) (main_arg2 : FVec F S128x64 .f32) (main_arg3 : FVec F S64 .f32) (main_arg4 : FVec F S64x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_v13 main_v16
-- ==== Kernel.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S64x64 : Shape := ⟨2, ![64, 64]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S10000x128 : Shape := ⟨2, ![10000, 128]⟩
abbrev S10000x64 : Shape := ⟨2, ![10000, 64]⟩
abbrev S3300000x64 : Shape := ⟨2, ![3300000, 64]⟩
abbrev S1x64 : Shape := ⟨2, ![1, 64]⟩

abbrev nBuf : Space → Nat
  | .hbm => 87
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S3300000, .i32⟩
  | .hbm, ⟨32, _⟩ => ⟨S3300000, .i1⟩
  | .hbm, ⟨33, _⟩ => ⟨S_, .i32⟩
  | .hbm, ⟨34, _⟩ => ⟨S3300000, .i32⟩
  | .hbm, ⟨35, _⟩ => ⟨S3300000, .i32⟩
  | .hbm, ⟨36, _⟩ => ⟨S3300000, .i32⟩
  | .hbm, ⟨37, _⟩ => ⟨S3300000x1, .i32⟩
  | .hbm, ⟨38, _⟩ => ⟨S3300000, .f32⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000, .f32⟩
  | .hbm, ⟨48, _⟩ => ⟨S3300000, .f32⟩
  | .hbm, ⟨49, _⟩ => ⟨S100000x64, .f32⟩
  | .hbm, ⟨50, _⟩ => ⟨S_, .i32⟩
  | .hbm, ⟨51, _⟩ => ⟨S3300000, .i32⟩
  | .hbm, ⟨52, _⟩ => ⟨S3300000, .i1⟩
  | .hbm, ⟨53, _⟩ => ⟨S_, .i32⟩
  | .hbm, ⟨54, _⟩ => ⟨S3300000, .i32⟩
  | .hbm, ⟨55, _⟩ => ⟨S3300000, .i32⟩
  | .hbm, ⟨56, _⟩ => ⟨S3300000, .i32⟩
  | .hbm, ⟨57, _⟩ => ⟨S3300000x1, .i32⟩
  | .hbm, ⟨58, _⟩ => ⟨S3300000x64, .f32⟩
  | .hbm, ⟨59, _⟩ => ⟨S3300000x1, .f32⟩
  | .hbm, ⟨60, _⟩ => ⟨S3300000x64, .f32⟩
  | .hbm, ⟨61, _⟩ => ⟨S3300000x64, .f32⟩
  | .hbm, ⟨62, _⟩ => ⟨S_, .f32⟩
  | .hbm, ⟨63, _⟩ => ⟨S100000x64, .f32⟩
  | .hbm, ⟨64, _⟩ => ⟨S3300000x1, .i32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S100000x64, .f32⟩
  | .hbm, ⟨69, _⟩ => ⟨S_, .i32⟩
  | .hbm, ⟨70, _⟩ => ⟨S3300000, .i32⟩
  | .hbm, ⟨71, _⟩ => ⟨S3300000, .i1⟩
  | .hbm, ⟨72, _⟩ => ⟨S_, .i32⟩
  | .hbm, ⟨73, _⟩ => ⟨S3300000, .i32⟩
  | .hbm, ⟨74, _⟩ => ⟨S3300000, .i32⟩
  | .hbm, ⟨75, _⟩ => ⟨S3300000, .i32⟩
  | .hbm, ⟨76, _⟩ => ⟨S3300000x1, .i32⟩
  | .hbm, ⟨77, _⟩ => ⟨S3300000x64, .f32⟩
  | .hbm, ⟨78, _⟩ => ⟨S3300000x1, .f32⟩
  | .hbm, ⟨79, _⟩ => ⟨S3300000x64, .f32⟩
  | .hbm, ⟨80, _⟩ => ⟨S3300000x64, .f32⟩
  | .hbm, ⟨81, _⟩ => ⟨S_, .f32⟩
  | .hbm, ⟨82, _⟩ => ⟨S100000x64, .f32⟩
  | .hbm, ⟨83, _⟩ => ⟨S3300000x1, .i32⟩
  | .hbm, ⟨84, _⟩ => ⟨S100000x64, .f32⟩
  | .hbm, ⟨85, _⟩ => ⟨S1x64, .f32⟩
  | .hbm, ⟨86, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_c_11 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x128_S128x64_S10000x64_1_0_0_1_n_n_wf : DotDims.WF S10000x128 S128x64 S10000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S64x64 : Shape := ⟨2, ![64, 64]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S3300000x64 : Shape := ⟨2, ![3300000, 64]⟩
abbrev S1x64 : Shape := ⟨2, ![1, 64]⟩

abbrev nBuf : Space → Nat
  | .hbm => 135
  | .vmem => 0
  | .smem => 0
  | _ => 0

abbrev hbmTy0_0 (i : Nat) : BufTy := match i % 128 with
  | 0 => ⟨S100000x128, .f32⟩
  | 1 => ⟨S2x3200000, .i32⟩
  | 2 => ⟨S128x64, .f32⟩
  | 3 => ⟨S64, .f32⟩
  | 4 => ⟨S64x64, .f32⟩
  | 5 => ⟨S64, .f32⟩
  | 6 => ⟨S100000, .i32⟩
  | 7 => ⟨S1x3200000, .i32⟩
  | 8 => ⟨S3200000, .i32⟩
  | 9 => ⟨S3300000, .i32⟩
  | 10 => ⟨S1x3200000, .i32⟩
  | 11 => ⟨S3200000, .i32⟩
  | 12 => ⟨S3300000, .i32⟩
  | 13 => ⟨S_, .f32⟩
  | 14 => ⟨S3300000, .f32⟩
  | 15 => ⟨S_, .f32⟩
  | 16 => ⟨S100000, .f32⟩
  | 17 => ⟨S3300000x1, .i32⟩
  | 18 => ⟨S100000, .f32⟩
  | 19 => ⟨S_, .f32⟩
  | 20 => ⟨S100000, .f32⟩
  | 21 => ⟨S100000, .i1⟩
  | 22 => ⟨S_, .f32⟩
  | 23 => ⟨S100000, .f32⟩
  | 24 => ⟨S100000, .f32⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S3300000, .i32⟩
  | 32 => ⟨S3300000, .i1⟩
  | 33 => ⟨S_, .i32⟩
  | 34 => ⟨S3300000, .i32⟩
  | 35 => ⟨S3300000, .i32⟩
  | 36 => ⟨S3300000, .i32⟩
  | 37 => ⟨S3300000x1, .i32⟩
  | 38 => ⟨S3300000, .f32⟩
  | 39 => ⟨S_, .i32⟩
  | 40 => ⟨S3300000, .i32⟩
  | 41 => ⟨S3300000, .i1⟩
  | 42 => ⟨S_, .i32⟩
  | 43 => ⟨S3300000, .i32⟩
  | 44 => ⟨S3300000, .i32⟩
  | 45 => ⟨S3300000, .i32⟩
  | 46 => ⟨S3300000x1, .i32⟩
  | 47 => ⟨S3300000, .f32⟩
  | 48 => ⟨S3300000, .f32⟩
  | 49 => ⟨S100000x64, .f32⟩
  | 50 => ⟨S_, .i32⟩
  | 51 => ⟨S3300000, .i32⟩
  | 52 => ⟨S3300000, .i1⟩
  | 53 => ⟨S_, .i32⟩
  | 54 => ⟨S3300000, .i32⟩
  | 55 => ⟨S3300000, .i32⟩
  | 56 => ⟨S3300000, .i32⟩
  | 57 => ⟨S3300000x1, .i32⟩
  | 58 => ⟨S3300000x64, .f32⟩
  | 59 => ⟨S3300000x1, .f32⟩
  | 60 => ⟨S3300000x64, .f32⟩
  | 61 => ⟨S3300000x64, .f32⟩
  | 62 => ⟨S_, .f32⟩
  | 63 => ⟨S100000x64, .f32⟩
  | 64 => ⟨S3300000x1, .i32⟩
  | 65 => ⟨S100000x64, .f32⟩
  | 66 => ⟨S1x64, .f32⟩
  | 67 => ⟨S100000x64, .f32⟩
  | 68 => ⟨S100000x64, .f32⟩
  | 69 => ⟨S_, .f32⟩
  | 70 => ⟨S100000x64, .f32⟩
  | 71 => ⟨S100000x64, .f32⟩
  | 72 => ⟨S100000, .i32⟩
  | 73 => ⟨S1x3200000, .i32⟩
  | 74 => ⟨S3200000, .i32⟩
  | 75 => ⟨S3300000, .i32⟩
  | 76 => ⟨S1x3200000, .i32⟩
  | 77 => ⟨S3200000, .i32⟩
  | 78 => ⟨S3300000, .i32⟩
  | 79 => ⟨S_, .f32⟩
  | 80 => ⟨S3300000, .f32⟩
  | 81 => ⟨S_, .f32⟩
  | 82 => ⟨S100000, .f32⟩
  | 83 => ⟨S3300000x1, .i32⟩
  | 84 => ⟨S100000, .f32⟩
  | 85 => ⟨S_, .f32⟩
  | 86 => ⟨S100000, .f32⟩
  | 87 => ⟨S100000, .i1⟩
  | 88 => ⟨S_, .f32⟩
  | 89 => ⟨S100000, .f32⟩
  | 90 => ⟨S100000, .f32⟩
  | 91 => ⟨S100000, .f32⟩
  | 92 => ⟨S_, .f32⟩
  | 93 => ⟨S_, .f32⟩
  | 94 => ⟨S100000, .f32⟩
  | 95 => ⟨S100000, .f32⟩
  | 96 => ⟨S_, .i32⟩
  | 97 => ⟨S3300000, .i32⟩
  | 98 => ⟨S3300000, .i1⟩
  | 99 => ⟨S_, .i32⟩
  | 100 => ⟨S3300000, .i32⟩
  | 101 => ⟨S3300000, .i32⟩
  | 102 => ⟨S3300000, .i32⟩
  | 103 => ⟨S3300000x1, .i32⟩
  | 104 => ⟨S3300000, .f32⟩
  | 105 => ⟨S_, .i32⟩
  | 106 => ⟨S3300000, .i32⟩
  | 107 => ⟨S3300000, .i1⟩
  | 108 => ⟨S_, .i32⟩
  | 109 => ⟨S3300000, .i32⟩
  | 110 => ⟨S3300000, .i32⟩
  | 111 => ⟨S3300000, .i32⟩
  | 112 => ⟨S3300000x1, .i32⟩
  | 113 => ⟨S3300000, .f32⟩
  | 114 => ⟨S3300000, .f32⟩
  | 115 => ⟨S100000x64, .f32⟩
  | 116 => ⟨S_, .i32⟩
  | 117 => ⟨S3300000, .i32⟩
  | 118 => ⟨S3300000, .i1⟩
  | 119 => ⟨S_, .i32⟩
  | 120 => ⟨S3300000, .i32⟩
  | 121 => ⟨S3300000, .i32⟩
  | 122 => ⟨S3300000, .i32⟩
  | 123 => ⟨S3300000x1, .i32⟩
  | 124 => ⟨S3300000x64, .f32⟩
  | 125 => ⟨S3300000x1, .f32⟩
  | 126 => ⟨S3300000x64, .f32⟩
  | 127 => ⟨S3300000x64, .f32⟩
  | _ => ⟨S100000x128, .f32⟩

abbrev hbmTy0_1 (i : Nat) : BufTy := match i % 128 with
  | 0 => ⟨S_, .f32⟩
  | 1 => ⟨S100000x64, .f32⟩
  | 2 => ⟨S3300000x1, .i32⟩
  | 3 => ⟨S100000x64, .f32⟩
  | 4 => ⟨S1x64, .f32⟩
  | 5 => ⟨S100000x64, .f32⟩
  | 6 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_cst_11 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_cst_13 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_14 : Ref sig .tc := ⟨.hbm, 92, rfl⟩
abbrev main_call2_v0 : Ref sig .tc := ⟨.hbm, 93, rfl⟩
abbrev main_call2_v1 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_c_17 : Ref sig .tc := ⟨.hbm, 105, rfl⟩
abbrev main_v74 : Ref sig .tc := ⟨.hbm, 106, rfl⟩
abbrev main_v75 : Ref sig .tc := ⟨.hbm, 107, rfl⟩
abbrev main_c_18 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_c_19 : Ref sig .tc := ⟨.hbm, 116, rfl⟩
abbrev main_v83 : Ref sig .tc := ⟨.hbm, 117, rfl⟩
abbrev main_v84 : Ref sig .tc := ⟨.hbm, 118, rfl⟩
abbrev main_c_20 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_cst_21 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x128_S128x64_S100000x64_1_0_0_1_n_n_wf : DotDims.WF S100000x128 S128x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x64_S100000x64_1_0_0_1_n_n_wf : DotDims.WF S100000x64 S64x64 S100000x64 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.ReferenceTerms.lean ====
/-
  The reference's result as a composition of named pieces.

  The reference is two graph-convolution layers. Each layer multiplies the node features by a weight matrix, gathers
  the product's rows at the message sources, scales each message by the symmetric degree normalization of its edge,
  adds the messages up at their targets, and adds a bias row; between the layers it takes the maximum with zero. The
  edge list (with one self loop per node appended) and the normalization depend on the edge array alone and are the
  same in both layers. Here each piece is one definition — the message targets `dst`, the message sources `src`, the
  per-message scale `norm`, the gather-scale-scatter `agg`, the bias rows `biasRows`, the two products — and the
  composed term the reference's run ends at is their composition, by unfolding.
-/
import proofs.«173187_j10840497455789_1_alg».proof.Proof.ReferenceRun

set_option maxRecDepth 8192

noncomputable section

namespace Cert.ReferenceIdeal.Terms

open Cert.ReferenceIdeal Cert.ReferenceIdeal.Gen Idealize.ShloMosaic Idealize.ShloMosaic.TcCoe Idealize.SL.Sem Idealize.ShloMosaic.StableHlo

variable {F : FTy → Type} [FloatOps F]

/-- The message targets: row 1 of the edge array, then the self loops 0, …, 99999. -/
def dst (e : (⟨S2x3200000, .i32⟩ : BufTy).Contents (Elt F)) : (⟨S3300000, .i32⟩ : BufTy).Contents (Elt F) :=
  (concatenate S3300000 0 [⟨S3200000, (shapeCast _ (extractStridedSlice S1x3200000 ![1, 0] e slices_S2x3200000_S1x3200000_1_0) shapeCasts_S1x3200000_S3200000)⟩, ⟨S100000, (iotaInDim S100000 32 0)⟩] concatenates_S3200000_S100000_S3300000_d0)

/-- The message sources: row 0 of the edge array, then the self loops 0, …, 99999. -/
def src (e : (⟨S2x3200000, .i32⟩ : BufTy).Contents (Elt F)) : (⟨S3300000, .i32⟩ : BufTy).Contents (Elt F) :=
  (concatenate S3300000 0 [⟨S3200000, (shapeCast _ (extractStridedSlice S1x3200000 ![0, 0] e slices_S2x3200000_S1x3200000_0_0) shapeCasts_S1x3200000_S3200000)⟩, ⟨S100000, (iotaInDim S100000 32 0)⟩] concatenates_S3200000_S100000_S3300000_d0)

/-- The scale of each message: d(source)^(-1/2) · d(target)^(-1/2), where d counts the messages arriving at a node and
    a node no message reaches gets 0. -/
def norm (e : (⟨S2x3200000, .i32⟩ : BufTy).Contents (Elt F)) : (⟨S3300000, .f32⟩ : BufTy).Contents (Elt F) :=
  (mulf (Host.gather gather_S100000_S3300000x1_S3300000_n_0_n_n_0_1_1 (select (cmpf (F := F) .ogt (Host.scatterAdd scatter_S100000_S3300000x1_S3300000_n_0_0_1 (broadcastInDim S100000 ![] bcast_S_S100000 (constant S_ .f32 0x00000000#32)) (broadcastInDim S3300000x1 ![0] bcast_S3300000_S3300000x1_0 (concatenate S3300000 0 [⟨S3200000, (shapeCast _ (extractStridedSlice S1x3200000 ![1, 0] e slices_S2x3200000_S1x3200000_1_0) shapeCasts_S1x3200000_S3200000)⟩, ⟨S100000, (iotaInDim S100000 32 0)⟩] concatenates_S3200000_S100000_S3300000_d0)) (broadcastInDim S3300000 ![] bcast_S_S3300000 (constant S_ .f32 0x3F800000#32))) (broadcastInDim S100000 ![] bcast_S_S100000 (constant S_ .f32 0x00000000#32))) (Host.rsqrt (maximumf (Host.scatterAdd scatter_S100000_S3300000x1_S3300000_n_0_0_1 (broadcastInDim S100000 ![] bcast_S_S100000 (constant S_ .f32 0x00000000#32)) (broadcastInDim S3300000x1 ![0] bcast_S3300000_S3300000x1_0 (concatenate S3300000 0 [⟨S3200000, (shapeCast _ (extractStridedSlice S1x3200000 ![1, 0] e slices_S2x3200000_S1x3200000_1_0) shapeCasts_S1x3200000_S3200000)⟩, ⟨S100000, (iotaInDim S100000 32 0)⟩] concatenates_S3200000_S100000_S3300000_d0)) (broadcastInDim S3300000 ![] bcast_S_S3300000 (constant S_ .f32 0x3F800000#32))) (broadcastInDim S100000 ![] bcast_S_S100000 (constant S_ .f32 0x3F800000#32)))) (broadcastInDim S100000 ![] bcast_S_S100000 (id (constant S_ .f32 0x00000000#32)))) (broadcastInDim S3300000x1 ![0] bcast_S3300000_S3300000x1_0 (select (cmpi .slt (concatenate S3300000 0 [⟨S3200000, (shapeCast _ (extractStridedSlice S1x3200000 ![0, 0] e slices_S2x3200000_S1x3200000_0_0) shapeCasts_S1x3200000_S3200000)⟩, ⟨S100000, (iotaInDim S100000 32 0)⟩] concatenates_S3200000_S100000_S3300000_d0) (broadcastInDim S3300000 ![] bcast_S_S3300000 (constantI S_ 32 0#32))) (addi (concatenate S3300000 0 [⟨S3200000, (shapeCast _ (extractStridedSlice S1x3200000 ![0, 0] e slices_S2x3200000_S1x3200000_0_0) shapeCasts_S1x3200000_S3200000)⟩, ⟨S100000, (iotaInDim S100000 32 0)⟩] concatenates_S3200000_S100000_S3300000_d0) (broadcastInDim S3300000 ![] bcast_S_S3300000 (constantI S_ 32 100000#32))) (concatenate S3300000 0 [⟨S3200000, (shapeCast _ (extractStridedSlice S1x3200000 ![0, 0] e slices_S2x3200000_S1x3200000_0_0) shapeCasts_S1x3200000_S3200000)⟩, ⟨S100000, (iotaInDim S100000 32 0)⟩] concatenates_S3200000_S100000_S3300000_d0)))) (Host.gather gather_S100000_S3300000x1_S3300000_n_0_n_n_0_1_1 (select (cmpf (F := F) .ogt (Host.scatterAdd scatter_S100000_S3300000x1_S3300000_n_0_0_1 (broadcastInDim S100000 ![] bcast_S_S100000 (constant S_ .f32 0x00000000#32)) (broadcastInDim S3300000x1 ![0] bcast_S3300000_S3300000x1_0 (concatenate S3300000 0 [⟨S3200000, (shapeCast _ (extractStridedSlice S1x3200000 ![1, 0] e slices_S2x3200000_S1x3200000_1_0) shapeCasts_S1x3200000_S3200000)⟩, ⟨S100000, (iotaInDim S100000 32 0)⟩] concatenates_S3200000_S100000_S3300000_d0)) (broadcastInDim S3300000 ![] bcast_S_S3300000 (constant S_ .f32 0x3F800000#32))) (broadcastInDim S100000 ![] bcast_S_S100000 (constant S_ .f32 0x00000000#32))) (Host.rsqrt (maximumf (Host.scatterAdd scatter_S100000_S3300000x1_S3300000_n_0_0_1 (broadcastInDim S100000 ![] bcast_S_S100000 (constant S_ .f32 0x00000000#32)) (broadcastInDim S3300000x1 ![0] bcast_S3300000_S3300000x1_0 (concatenate S3300000 0 [⟨S3200000, (shapeCast _ (extractStridedSlice S1x3200000 ![1, 0] e slices_S2x3200000_S1x3200000_1_0) shapeCasts_S1x3200000_S3200000)⟩, ⟨S100000, (iotaInDim S100000 32 0)⟩] concatenates_S3200000_S100000_S3300000_d0)) (broadcastInDim S3300000 ![] bcast_S_S3300000 (constant S_ .f32 0x3F800000#32))) (broadcastInDim S100000 ![] bcast_S_S100000 (constant S_ .f32 0x3F800000#32)))) (broadcastInDim S100000 ![] bcast_S_S100000 (id (constant S_ .f32 0x00000000#32)))) (broadcastInDim S3300000x1 ![0] bcast_S3300000_S3300000x1_0 (select (cmpi .slt (concatenate S3300000 0 [⟨S3200000, (shapeCast _ (extractStridedSlice S1x3200000 ![1, 0] e slices_S2x3200000_S1x3200000_1_0) shapeCasts_S1x3200000_S3200000)⟩, ⟨S100000, (iotaInDim S100000 32 0)⟩] concatenates_S3200000_S100000_S3300000_d0) (broadcastInDim S3300000 ![] bcast_S_S3300000 (constantI S_ 32 0#32))) (addi (concatenate S3300000 0 [⟨S3200000, (shapeCast _ (extractStridedSlice S1x3200000 ![1, 0] e slices_S2x3200000_S1x3200000_1_0) shapeCasts_S1x3200000_S3200000)⟩, ⟨S100000, (iotaInDim S100000 32 0)⟩] concatenates_S3200000_S100000_S3300000_d0) (broadcastInDim S3300000 ![] bcast_S_S3300000 (constantI S_ 32 100000#32))) (concatenate S3300000 0 [⟨S3200000, (shapeCast _ (extractStridedSlice S1x3200000 ![1, 0] e slices_S2x3200000_S1x3200000_1_0) shapeCasts_S1x3200000_S3200000)⟩, ⟨S100000, (iotaInDim S100000 32 0)⟩] concatenates_S3200000_S100000_S3300000_d0)))))

/-- Gather the rows of `h` at the sources `s` (a negative node number counted from the end), scale message by message
    by `n`, and add the messages up at their targets `d`, starting from zero. -/
def agg (d s : (⟨S3300000, .i32⟩ : BufTy).Contents (Elt F)) (n : (⟨S3300000, .f32⟩ : BufTy).Contents (Elt F)) (h : (⟨S100000x64, .f32⟩ : BufTy).Contents (Elt F)) : (⟨S100000x64, .f32⟩ : BufTy).Contents (Elt F) :=
  Host.scatterAdd scatter_S100000x64_S3300000x1_S3300000x64_1_0_0_1 (broadcastInDim S100000x64 ![] bcast_S_S100000x64 (constant S_ .f32 0x00000000#32)) (broadcastInDim S3300000x1 ![0] bcast_S3300000_S3300000x1_0 d) (mulf (Host.gather gather_S100000x64_S3300000x1_S3300000x64_1_0_n_n_0_1_164 h (broadcastInDim S3300000x1 ![0] bcast_S3300000_S3300000x1_0 (select (cmpi .slt s (broadcastInDim S3300000 ![] bcast_S_S3300000 (constantI S_ 32 0#32))) (addi s (broadcastInDim S3300000 ![] bcast_S_S3300000 (constantI S_ 32 100000#32))) s))) (broadcastInDim S3300000x64 ![0, 1] bcast_S3300000x1_S3300000x64_0_1 (broadcastInDim S3300000x1 ![0] bcast_S3300000_S3300000x1_0 n)))

/-- A 64-entry bias as 100000 equal rows. -/
def biasRows (b : (⟨S64, .f32⟩ : BufTy).Contents (Elt F)) : (⟨S100000x64, .f32⟩ : BufTy).Contents (Elt F) :=
  broadcastInDim S100000x64 ![0, 1] bcast_S1x64_S100000x64_0_1 (broadcastInDim S1x64 ![1] bcast_S64_S1x64_1 b)

/-- The zero word at every entry. -/
def zeros : (⟨S100000x64, .f32⟩ : BufTy).Contents (Elt F) :=
  broadcastInDim S100000x64 ![] bcast_S_S100000x64 (constant S_ .f32 0x00000000#32)

/-- Node features times the first weight matrix. -/
def dot1 (x : (⟨S100000x128, .f32⟩ : BufTy).Contents (Elt F)) (w : (⟨S128x64, .f32⟩ : BufTy).Contents (Elt F)) : (⟨S100000x64, .f32⟩ : BufTy).Contents (Elt F) :=
  Host.dotGeneral dot_S100000x128_S128x64_S100000x64_1_0_0_1_n_n none x w

/-- Hidden features times the second weight matrix. -/
def dot2 (x : (⟨S100000x64, .f32⟩ : BufTy).Contents (Elt F)) (w : (⟨S64x64, .f32⟩ : BufTy).Contents (Elt F)) : (⟨S100000x64, .f32⟩ : BufTy).Contents (Elt F) :=
  Host.dotGeneral dot_S100000x64_S64x64_S100000x64_1_0_0_1_n_n none x w

/-- The two layers composed. -/
def whole (x : (⟨S100000x128, .f32⟩ : BufTy).Contents (Elt F)) (e : (⟨S2x3200000, .i32⟩ : BufTy).Contents (Elt F)) (w1 : (⟨S128x64, .f32⟩ : BufTy).Contents (Elt F)) (b1 : (⟨S64, .f32⟩ : BufTy).Contents (Elt F))
    (w2 : (⟨S64x64, .f32⟩ : BufTy).Contents (Elt F)) (b2 : (⟨S64, .f32⟩ : BufTy).Contents (Elt F)) : (⟨S100000x64, .f32⟩ : BufTy).Contents (Elt F) :=
  addf (agg (dst e) (src e) (norm e) (dot2 (maximumf (addf (agg (dst e) (src e) (norm e) (dot1 x w1)) (biasRows b1)) zeros) w2)) (biasRows b2)

/-- The term the reference's run ends at is the composition. -/
theorem res_eq (m : (ℓ : Loc nD τ sig) → Buf (Elt F) ℓ) (c : Dev nD) :
    Cert.ReferenceIdeal.ValueP.res_main_v98 m c
      = whole (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := rfl

end Cert.ReferenceIdeal.Terms

end
-- ==== Proof.KernelRun.lean ====
/-
  The idealized kernel's run with its result named.

  @main is nine segments: three stretches of host operations, the first matrix product's region, a stretch, the
  bias-and-ReLU region, the second matrix product's region, a stretch, the bias region. The buffer contents at each
  segment boundary are a fold from the launch memory (`Gen.W0` … `Gen.W9`). Every weakly fair execution ends with
  every unscoped buffer at the last boundary's contents `Gen.W9`; the generated frame keeps of that only the six
  argument arrays. Here the result buffer `main_v63` is kept too: it ends at `Gen.W9` read at `main_v63`, which the
  later modules unfold region by region into a function of the arguments.
-/
import proofs.«173187_j10840497455789_1_alg».proof.Proof.Gen.KernelIdeal.Frame

set_option maxRecDepth 16384

noncomputable section

namespace Cert.KernelIdeal.Out

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the six argument arrays as launched: the launch over the nine segments, the last thread state read
    against the final state buffer by buffer. -/
theorem run_out : θ_run defs (onTc (τ := τ) (main (F := F))) ⟨m, fun _ => 0, ρ⟩ (fun r => ∀ c : Dev nD,
      r.2.mem ((c.tc : Thread nD τ).loc main_v63) = W9 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v63 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.Out

end
-- ==== Proof.KernelHost.lean ====
/-
  The kernel's host operations read at the buffers its four regions consume.

  Between the regions @main runs stretches of host operations. The three stretches before the first region build, from
  the edge array alone, the message targets, the message sources and the per-message scale; the stretch before the
  second region gathers the first product's rows, scales them, adds them up at their targets and lays the first bias
  out as a row; the stretch before the last region does the same with the second product and the second bias. Read
  as functions of what they find, these are the reference's own pieces (`dst`, `src`, `norm`, `agg`): the two
  programs print the same operations for them, each over its own copy of the shapes and dimension records, and the
  copies are equal by unfolding.
-/
import proofs.«173187_j10840497455789_1_alg».proof.Proof.Gen.KernelIdeal.Frame
import proofs.«173187_j10840497455789_1_alg».proof.Proof.ReferenceTerms

set_option maxRecDepth 16384

noncomputable section

namespace Cert.KernelIdeal.Host

open Cert.KernelIdeal Cert.KernelIdeal.Gen Idealize.ShloMosaic Idealize.ShloMosaic.TcCoe Idealize.SL.Sem
open Idealize.ShloMosaic.StableHlo

variable {F : FTy → Type} [FloatOps F]

/-! ## The kernel's copies of the four pieces -/

/-- The message targets, over the kernel's shapes. -/
def dstK (e : (⟨S2x3200000, .i32⟩ : BufTy).Contents (Elt F)) : (⟨S3300000, .i32⟩ : BufTy).Contents (Elt F) :=
  (concatenate S3300000 0 [⟨S3200000, (shapeCast _ (extractStridedSlice S1x3200000 ![1, 0] e slices_S2x3200000_S1x3200000_1_0) shapeCasts_S1x3200000_S3200000)⟩, ⟨S100000, (iotaInDim S100000 32 0)⟩] concatenates_S3200000_S100000_S3300000_d0)

/-- The message sources, over the kernel's shapes. -/
def srcK (e : (⟨S2x3200000, .i32⟩ : BufTy).Contents (Elt F)) : (⟨S3300000, .i32⟩ : BufTy).Contents (Elt F) :=
  (concatenate S3300000 0 [⟨S3200000, (shapeCast _ (extractStridedSlice S1x3200000 ![0, 0] e slices_S2x3200000_S1x3200000_0_0) shapeCasts_S1x3200000_S3200000)⟩, ⟨S100000, (iotaInDim S100000 32 0)⟩] concatenates_S3200000_S100000_S3300000_d0)

/-- The scale of each message, over the kernel's shapes. -/
def normK (e : (⟨S2x3200000, .i32⟩ : BufTy).Contents (Elt F)) : (⟨S3300000, .f32⟩ : BufTy).Contents (Elt F) :=
  (mulf (Host.gather gather_S100000_S3300000x1_S3300000_n_0_n_n_0_1_1 (select (cmpf (F := F) .ogt (Host.scatterAdd scatter_S100000_S3300000x1_S3300000_n_0_0_1 (broadcastInDim S100000 ![] bcast_S_S100000 (constant S_ .f32 0x00000000#32)) (broadcastInDim S3300000x1 ![0] bcast_S3300000_S3300000x1_0 (concatenate S3300000 0 [⟨S3200000, (shapeCast _ (extractStridedSlice S1x3200000 ![1, 0] e slices_S2x3200000_S1x3200000_1_0) shapeCasts_S1x3200000_S3200000)⟩, ⟨S100000, (iotaInDim S100000 32 0)⟩] concatenates_S3200000_S100000_S3300000_d0)) (broadcastInDim S3300000 ![] bcast_S_S3300000 (constant S_ .f32 0x3F800000#32))) (broadcastInDim S100000 ![] bcast_S_S100000 (constant S_ .f32 0x00000000#32))) (Host.rsqrt (maximumf (Host.scatterAdd scatter_S100000_S3300000x1_S3300000_n_0_0_1 (broadcastInDim S100000 ![] bcast_S_S100000 (constant S_ .f32 0x00000000#32)) (broadcastInDim S3300000x1 ![0] bcast_S3300000_S3300000x1_0 (concatenate S3300000 0 [⟨S3200000, (shapeCast _ (extractStridedSlice S1x3200000 ![1, 0] e slices_S2x3200000_S1x3200000_1_0) shapeCasts_S1x3200000_S3200000)⟩, ⟨S100000, (iotaInDim S100000 32 0)⟩] concatenates_S3200000_S100000_S3300000_d0)) (broadcastInDim S3300000 ![] bcast_S_S3300000 (constant S_ .f32 0x3F800000#32))) (broadcastInDim S100000 ![] bcast_S_S100000 (constant S_ .f32 0x3F800000#32)))) (broadcastInDim S100000 ![] bcast_S_S100000 (id (constant S_ .f32 0x00000000#32)))) (broadcastInDim S3300000x1 ![0] bcast_S3300000_S3300000x1_0 (select (cmpi .slt (concatenate S3300000 0 [⟨S3200000, (shapeCast _ (extractStridedSlice S1x3200000 ![0, 0] e slices_S2x3200000_S1x3200000_0_0) shapeCasts_S1x3200000_S3200000)⟩, ⟨S100000, (iotaInDim S100000 32 0)⟩] concatenates_S3200000_S100000_S3300000_d0) (broadcastInDim S3300000 ![] bcast_S_S3300000 (constantI S_ 32 0#32))) (addi (concatenate S3300000 0 [⟨S3200000, (shapeCast _ (extractStridedSlice S1x3200000 ![0, 0] e slices_S2x3200000_S1x3200000_0_0) shapeCasts_S1x3200000_S3200000)⟩, ⟨S100000, (iotaInDim S100000 32 0)⟩] concatenates_S3200000_S100000_S3300000_d0) (broadcastInDim S3300000 ![] bcast_S_S3300000 (constantI S_ 32 100000#32))) (concatenate S3300000 0 [⟨S3200000, (shapeCast _ (extractStridedSlice S1x3200000 ![0, 0] e slices_S2x3200000_S1x3200000_0_0) shapeCasts_S1x3200000_S3200000)⟩, ⟨S100000, (iotaInDim S100000 32 0)⟩] concatenates_S3200000_S100000_S3300000_d0)))) (Host.gather gather_S100000_S3300000x1_S3300000_n_0_n_n_0_1_1 (select (cmpf (F := F) .ogt (Host.scatterAdd scatter_S100000_S3300000x1_S3300000_n_0_0_1 (broadcastInDim S100000 ![] bcast_S_S100000 (constant S_ .f32 0x00000000#32)) (broadcastInDim S3300000x1 ![0] bcast_S3300000_S3300000x1_0 (concatenate S3300000 0 [⟨S3200000, (shapeCast _ (extractStridedSlice S1x3200000 ![1, 0] e slices_S2x3200000_S1x3200000_1_0) shapeCasts_S1x3200000_S3200000)⟩, ⟨S100000, (iotaInDim S100000 32 0)⟩] concatenates_S3200000_S100000_S3300000_d0)) (broadcastInDim S3300000 ![] bcast_S_S3300000 (constant S_ .f32 0x3F800000#32))) (broadcastInDim S100000 ![] bcast_S_S100000 (constant S_ .f32 0x00000000#32))) (Host.rsqrt (maximumf (Host.scatterAdd scatter_S100000_S3300000x1_S3300000_n_0_0_1 (broadcastInDim S100000 ![] bcast_S_S100000 (constant S_ .f32 0x00000000#32)) (broadcastInDim S3300000x1 ![0] bcast_S3300000_S3300000x1_0 (concatenate S3300000 0 [⟨S3200000, (shapeCast _ (extractStridedSlice S1x3200000 ![1, 0] e slices_S2x3200000_S1x3200000_1_0) shapeCasts_S1x3200000_S3200000)⟩, ⟨S100000, (iotaInDim S100000 32 0)⟩] concatenates_S3200000_S100000_S3300000_d0)) (broadcastInDim S3300000 ![] bcast_S_S3300000 (constant S_ .f32 0x3F800000#32))) (broadcastInDim S100000 ![] bcast_S_S100000 (constant S_ .f32 0x3F800000#32)))) (broadcastInDim S100000 ![] bcast_S_S100000 (id (constant S_ .f32 0x00000000#32)))) (broadcastInDim S3300000x1 ![0] bcast_S3300000_S3300000x1_0 (select (cmpi .slt (concatenate S3300000 0 [⟨S3200000, (shapeCast _ (extractStridedSlice S1x3200000 ![1, 0] e slices_S2x3200000_S1x3200000_1_0) shapeCasts_S1x3200000_S3200000)⟩, ⟨S100000, (iotaInDim S100000 32 0)⟩] concatenates_S3200000_S100000_S3300000_d0) (broadcastInDim S3300000 ![] bcast_S_S3300000 (constantI S_ 32 0#32))) (addi (concatenate S3300000 0 [⟨S3200000, (shapeCast _ (extractStridedSlice S1x3200000 ![1, 0] e slices_S2x3200000_S1x3200000_1_0) shapeCasts_S1x3200000_S3200000)⟩, ⟨S100000, (iotaInDim S100000 32 0)⟩] concatenates_S3200000_S100000_S3300000_d0) (broadcastInDim S3300000 ![] bcast_S_S3300000 (constantI S_ 32 100000#32))) (concatenate S3300000 0 [⟨S3200000, (shapeCast _ (extractStridedSlice S1x3200000 ![1, 0] e slices_S2x3200000_S1x3200000_1_0) shapeCasts_S1x3200000_S3200000)⟩, ⟨S100000, (iotaInDim S100000 32 0)⟩] concatenates_S3200000_S100000_S3300000_d0)))))

/-- Gather, scale and add up, over the kernel's shapes. -/
def aggK (d s : (⟨S3300000, .i32⟩ : BufTy).Contents (Elt F)) (n : (⟨S3300000, .f32⟩ : BufTy).Contents (Elt F)) (h : (⟨S100000x64, .f32⟩ : BufTy).Contents (Elt F)) : (⟨S100000x64, .f32⟩ : BufTy).Contents (Elt F) :=
  Host.scatterAdd scatter_S100000x64_S3300000x1_S3300000x64_1_0_0_1 (broadcastInDim S100000x64 ![] bcast_S_S100000x64 (constant S_ .f32 0x00000000#32)) (broadcastInDim S3300000x1 ![0] bcast_S3300000_S3300000x1_0 d) (mulf (Host.gather gather_S100000x64_S3300000x1_S3300000x64_1_0_n_n_0_1_164 h (broadcastInDim S3300000x1 ![0] bcast_S3300000_S3300000x1_0 (select (cmpi .slt s (broadcastInDim S3300000 ![] bcast_S_S3300000 (constantI S_ 32 0#32))) (addi s (broadcastInDim S3300000 ![] bcast_S_S3300000 (constantI S_ 32 100000#32))) s))) (broadcastInDim S3300000x64 ![0, 1] bcast_S3300000x1_S3300000x64_0_1 (broadcastInDim S3300000x1 ![0] bcast_S3300000_S3300000x1_0 n)))

theorem dstK_eq (e : (⟨S2x3200000, .i32⟩ : BufTy).Contents (Elt F)) : dstK (F := F) e = Cert.ReferenceIdeal.Terms.dst (F := F) e := rfl
theorem srcK_eq (e : (⟨S2x3200000, .i32⟩ : BufTy).Contents (Elt F)) : srcK (F := F) e = Cert.ReferenceIdeal.Terms.src (F := F) e := rfl
theorem normK_eq (e : (⟨S2x3200000, .i32⟩ : BufTy).Contents (Elt F)) : normK (F := F) e = Cert.ReferenceIdeal.Terms.norm (F := F) e := rfl
theorem aggK_eq (d s : (⟨S3300000, .i32⟩ : BufTy).Contents (Elt F)) (n : (⟨S3300000, .f32⟩ : BufTy).Contents (Elt F)) (h : (⟨S100000x64, .f32⟩ : BufTy).Contents (Elt F)) :
    aggK (F := F) d s n h = Cert.ReferenceIdeal.Terms.agg (F := F) d s n h := rfl

/-! ## The two stretches between regions, from any contents -/

/-- The stretch before the bias-and-ReLU region leaves, in its first operand, the first product gathered, scaled and
    added up. -/
theorem stretch1_agg (W : Valuation τ sig (Elt F)) :
    StableHlo.after hostOps1 W (Proc.devRef .tc main_v45)
      = aggK (W (Proc.devRef .tc main_v6)) (W (Proc.devRef .tc main_v3)) (W (Proc.devRef .tc main_v31)) (W (Proc.devRef .tc main_v32)) := by
  after_results_simp <;> rfl

/-- … and, in its second operand, the first bias as a one-row array. -/
theorem stretch1_bias (W : Valuation τ sig (Elt F)) :
    StableHlo.after hostOps1 W (Proc.devRef .tc main_v46) = shapeCast S1x64 (W (Proc.devRef .tc main_arg3)) shapeCasts_S64_S1x64 := by
  after_results
  rfl

/-- The stretch before the last region leaves, in its first operand, the second product gathered, scaled and added up. -/
theorem stretch3_agg (W : Valuation τ sig (Elt F)) :
    StableHlo.after hostOps3 W (Proc.devRef .tc main_v61)
      = aggK (W (Proc.devRef .tc main_v6)) (W (Proc.devRef .tc main_v3)) (W (Proc.devRef .tc main_v31)) (W (Proc.devRef .tc main_v48)) := by
  after_results_simp <;> rfl

/-- … and, in its second operand, the second bias as a one-row array. -/
theorem stretch3_bias (W : Valuation τ sig (Elt F)) :
    StableHlo.after hostOps3 W (Proc.devRef .tc main_v62) = shapeCast S1x64 (W (Proc.devRef .tc main_arg5)) shapeCasts_S64_S1x64 := by
  after_results
  rfl

/-! ## What the first region finds: the edge lists, the scale and the arguments, from the launch memory -/

variable (m : (ℓ : Loc nD τ sig) → Buf (Elt F) ℓ) (ρ : Dev nD → PrngReg)

/-- The message targets, as the first region finds them. -/
theorem W3_dst (c : Dev nD) : W3 m ρ c (Proc.devRef .tc main_v6) = dstK (m ((c : Thread nD τ).loc main_arg1)) := by
  show StableHlo.after hostOps0_2 (StableHlo.after hostOps0_1 (StableHlo.after hostOps0 (W0 m ρ c))) (Proc.devRef .tc main_v6) = _
  after_results_simp <;> rfl

/-- The message sources, as the first region finds them. -/
theorem W3_src (c : Dev nD) : W3 m ρ c (Proc.devRef .tc main_v3) = srcK (m ((c : Thread nD τ).loc main_arg1)) := by
  show StableHlo.after hostOps0_2 (StableHlo.after hostOps0_1 (StableHlo.after hostOps0 (W0 m ρ c))) (Proc.devRef .tc main_v3) = _
  after_results_simp <;> rfl

/-- The per-message scale, as the first region finds it. -/
theorem W3_norm (c : Dev nD) : W3 m ρ c (Proc.devRef .tc main_v31) = normK (m ((c : Thread nD τ).loc main_arg1)) := by
  show StableHlo.after hostOps0_2 (StableHlo.after hostOps0_1 (StableHlo.after hostOps0 (W0 m ρ c))) (Proc.devRef .tc main_v31) = _
  after_results_simp <;> rfl

/-- No host operation before the first region writes argument 0. -/
theorem W3_arg0 (c : Dev nD) : W3 m ρ c (Proc.devRef .tc main_arg0) = (m ((c : Thread nD τ).loc main_arg0)) := by
  show StableHlo.after hostOps0_2 (StableHlo.after hostOps0_1 (StableHlo.after hostOps0 (W0 m ρ c))) (Proc.devRef .tc main_arg0) = _
  after_results_simp <;> rfl

/-- No host operation before the first region writes argument 2. -/
theorem W3_arg2 (c : Dev nD) : W3 m ρ c (Proc.devRef .tc main_arg2) = (m ((c : Thread nD τ).loc main_arg2)) := by
  show StableHlo.after hostOps0_2 (StableHlo.after hostOps0_1 (StableHlo.after hostOps0 (W0 m ρ c))) (Proc.devRef .tc main_arg2) = _
  after_results_simp <;> rfl

/-- No host operation before the first region writes argument 3. -/
theorem W3_arg3 (c : Dev nD) : W3 m ρ c (Proc.devRef .tc main_arg3) = (m ((c : Thread nD τ).loc main_arg3)) := by
  show StableHlo.after hostOps0_2 (StableHlo.after hostOps0_1 (StableHlo.after hostOps0 (W0 m ρ c))) (Proc.devRef .tc main_arg3) = _
  after_results_simp <;> rfl

/-- No host operation before the first region writes argument 4. -/
theorem W3_arg4 (c : Dev nD) : W3 m ρ c (Proc.devRef .tc main_arg4) = (m ((c : Thread nD τ).loc main_arg4)) := by
  show StableHlo.after hostOps0_2 (StableHlo.after hostOps0_1 (StableHlo.after hostOps0 (W0 m ρ c))) (Proc.devRef .tc main_arg4) = _
  after_results_simp <;> rfl

/-- No host operation before the first region writes argument 5. -/
theorem W3_arg5 (c : Dev nD) : W3 m ρ c (Proc.devRef .tc main_arg5) = (m ((c : Thread nD τ).loc main_arg5)) := by
  show StableHlo.after hostOps0_2 (StableHlo.after hostOps0_1 (StableHlo.after hostOps0 (W0 m ρ c))) (Proc.devRef .tc main_arg5) = _
  after_results_simp <;> rfl

/-! ## What the later segments leave alone -/

/-- The stretch before the bias-and-ReLU region does not write `main_v6`. -/
theorem stretch1_keeps_v6 (W : Valuation τ sig (Elt F)) : StableHlo.after hostOps1 W (Proc.devRef .tc main_v6) = W (Proc.devRef .tc main_v6) := by
  after_results_simp <;> rfl

/-- The stretch before the bias-and-ReLU region does not write `main_v3`. -/
theorem stretch1_keeps_v3 (W : Valuation τ sig (Elt F)) : StableHlo.after hostOps1 W (Proc.devRef .tc main_v3) = W (Proc.devRef .tc main_v3) := by
  after_results_simp <;> rfl

/-- The stretch before the bias-and-ReLU region does not write `main_v31`. -/
theorem stretch1_keeps_v31 (W : Valuation τ sig (Elt F)) : StableHlo.after hostOps1 W (Proc.devRef .tc main_v31) = W (Proc.devRef .tc main_v31) := by
  after_results_simp <;> rfl

/-- The stretch before the bias-and-ReLU region does not write `main_arg4`. -/
theorem stretch1_keeps_arg4 (W : Valuation τ sig (Elt F)) : StableHlo.after hostOps1 W (Proc.devRef .tc main_arg4) = W (Proc.devRef .tc main_arg4) := by
  after_results_simp <;> rfl

/-- The stretch before the bias-and-ReLU region does not write `main_arg5`. -/
theorem stretch1_keeps_arg5 (W : Valuation τ sig (Elt F)) : StableHlo.after hostOps1 W (Proc.devRef .tc main_arg5) = W (Proc.devRef .tc main_arg5) := by
  after_results_simp <;> rfl

/-- A buffer that is no array of the first region holds after it what it held before. -/
theorem W4_keeps (c : Dev nD) (b : Ref sig .tc) (h0 : ∀ w, Pipeline.arrRef spec0 w ≠ b) :
    W4 m ρ c (Proc.devRef .tc b) = W3 m ρ c (Proc.devRef .tc b) := W4_of_ne m ρ c b h0

/-- A buffer that is no array of the first two regions and that the stretch between them does not write holds, when the
    third region is entered, what the first region found. -/
theorem W6_keeps (c : Dev nD) (b : Ref sig .tc) (h0 : ∀ w, Pipeline.arrRef spec0 w ≠ b) (h1 : ∀ w, Pipeline.arrRef spec1 w ≠ b)
    (hk : ∀ W : Valuation τ sig (Elt F), StableHlo.after hostOps1 W (Proc.devRef .tc b) = W (Proc.devRef .tc b)) :
    W6 m ρ c (Proc.devRef .tc b) = W3 m ρ c (Proc.devRef .tc b) :=
  (W6_of_ne m ρ c b h1).trans ((hk (W4 m ρ c)).trans (W4_of_ne m ρ c b h0))

/-- … and the same through the third region. -/
theorem W7_keeps (c : Dev nD) (b : Ref sig .tc) (h0 : ∀ w, Pipeline.arrRef spec0 w ≠ b) (h1 : ∀ w, Pipeline.arrRef spec1 w ≠ b)
    (h2 : ∀ w, Pipeline.arrRef spec2 w ≠ b)
    (hk : ∀ W : Valuation τ sig (Elt F), StableHlo.after hostOps1 W (Proc.devRef .tc b) = W (Proc.devRef .tc b)) :
    W7 m ρ c (Proc.devRef .tc b) = W3 m ρ c (Proc.devRef .tc b) :=
  (W7_of_ne m ρ c b h2).trans (W6_keeps m ρ c b h0 h1 hk)

end Cert.KernelIdeal.Host

end
-- ==== Proof.Bodies.lean ====
/-
  The four kernel bodies read at an index, on the extended reals.

  A block of rows times a weight matrix: the body narrows both operands to bf16 (the identity on the extended reals) and
  multiplies them into a zero accumulator, so entry (p, q) of what it stores is the sum over k of x(p, k) · w(k, q).
  A block of rows plus a one-row bias: entry (p, q) is a(p, q) + b(0, q); the first epilogue then takes the maximum
  with the zero word.
-/
import proofs.«173187_j10840497455789_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.Products

open Idealize.ShloMosaic Idealize.ShloMosaic.ValueIdx

/-- A product of an [M, K] operand with a [K, N] operand that contracts the left operand's second axis with the right
    operand's first (no batch axis), summed over the contraction index and read at the output index `j`: the sum over
    `k : Fin K` of l(j₀, k) · r(k, j₁). The four coordinate facts are what the dimension numbers say. -/
theorem sum_contr_eq {M K N : Nat} (d : DotDims ⟨2, ![M, K]⟩ ⟨2, ![K, N]⟩ ⟨2, ![M, N]⟩)
    (hr : d.contr.rank = 1) (hs : d.contr.size ⟨0, by omega⟩ = K)
    (hlc : d.lhsContracting = [1]) (hrc : d.rhsContracting = [0])
    (hl0 : ∀ j k, (d.lhsIdx j k 0).val = (j 0).val) (hr1 : ∀ j k, (d.rhsIdx j k 1).val = (j 1).val)
    (l : (⟨2, ![M, K]⟩ : Shape).Idx → EReal) (r : (⟨2, ![K, N]⟩ : Shape).Idx → EReal) (j : (⟨2, ![M, N]⟩ : Shape).Idx) :
    ∑ k : d.contr.Idx, l (d.lhsIdx j k) * r (d.rhsIdx j k) = ∑ k : Fin K, l (ix2 (j 0) k) * r (ix2 k (j 1)) := by
  rw [← Equiv.sum_comp (contrEquiv1 d K hr hs).symm]
  refine Finset.sum_congr rfl fun k _ => ?_
  have hk := contrEquiv1_symm_val d K hr hs k
  have el : d.lhsIdx j ((contrEquiv1 d K hr hs).symm k) = ix2 (j 0) k := funext fun a => Fin.ext (by
    match a with
    | ⟨0, _⟩ => exact hl0 _ _
    | ⟨1, _⟩ => exact (d.lhsIdx_val_of_single hlc _ _).trans hk)
  have er : d.rhsIdx j ((contrEquiv1 d K hr hs).symm k) = ix2 k (j 1) := funext fun a => Fin.ext (by
    match a with
    | ⟨0, _⟩ => exact (d.rhsIdx_val_of_single hrc _ _).trans hk
    | ⟨1, _⟩ => exact hr1 _ _)
  exact congrArg₂ (fun a b => l a * r b) el er

end Cert.Products

namespace Cert.KernelIdeal.Body

open Cert.KernelIdeal Cert.KernelIdeal.Gen Idealize.ShloMosaic Idealize.ShloMosaic.ValueIdx

local notation "d0" => dot_S10000x128_S128x64_S10000x64_1_0_0_1_n_n
local notation "d2" => dot_S10000x64_S64x64_S10000x64_1_0_0_1_n_n

theorem d0_l0 (j : S10000x64.Idx) (k : (d0).contr.Idx) : ((d0).lhsIdx j k 0).val = (j 0).val := by
  unfold DotDims.lhsIdx
  rw [dif_neg (show ¬(0 : Fin S10000x128.rank) ∈ (d0).lhsBatch by decide), dif_pos (show (0 : Fin S10000x128.rank) ∈ (d0).lhsNonContracting by decide)]
  rfl
theorem d0_r1 (j : S10000x64.Idx) (k : (d0).contr.Idx) : ((d0).rhsIdx j k 1).val = (j 1).val := by
  unfold DotDims.rhsIdx
  rw [dif_neg (show ¬(1 : Fin S128x64.rank) ∈ (d0).rhsBatch by decide), dif_pos (show (1 : Fin S128x64.rank) ∈ (d0).rhsNonContracting by decide)]
  rfl
theorem d2_l0 (j : S10000x64.Idx) (k : (d2).contr.Idx) : ((d2).lhsIdx j k 0).val = (j 0).val := by
  unfold DotDims.lhsIdx
  rw [dif_neg (show ¬(0 : Fin S10000x64.rank) ∈ (d2).lhsBatch by decide), dif_pos (show (0 : Fin S10000x64.rank) ∈ (d2).lhsNonContracting by decide)]
  rfl
theorem d2_r1 (j : S10000x64.Idx) (k : (d2).contr.Idx) : ((d2).rhsIdx j k 1).val = (j 1).val := by
  unfold DotDims.rhsIdx
  rw [dif_neg (show ¬(1 : Fin S64x64.rank) ∈ (d2).rhsBatch by decide), dif_pos (show (1 : Fin S64x64.rank) ∈ (d2).rhsNonContracting by decide)]
  rfl

/-- The first product's body: entry j of the stored block is the sum over the 128 input features. -/
theorem pay0_apply (x0 : Vec Ideal S10000x128 .f32) (x1 : Vec Ideal S128x64 .f32) (j : S10000x64.Idx) :
    k0_pay1 (F := Ideal) x0 x1 j = ∑ k : Fin 128, x0 (ix2 (j 0) k) * x1 (ix2 k (j 1)) := by
  unfold k0_pay1
  refine (Ideal.matmul_constant_zero_apply d0 none _ _ j).trans ?_
  exact Cert.Products.sum_contr_eq d0 rfl rfl rfl rfl d0_l0 d0_r1 x0 x1 j

/-- The second product's body: entry j of the stored block is the sum over the 64 hidden features. -/
theorem pay2_apply (x0 : Vec Ideal S10000x64 .f32) (x1 : Vec Ideal S64x64 .f32) (j : S10000x64.Idx) :
    k2_pay1 (F := Ideal) x0 x1 j = ∑ k : Fin 64, x0 (ix2 (j 0) k) * x1 (ix2 k (j 1)) := by
  unfold k2_pay1
  refine (Ideal.matmul_constant_zero_apply d2 none _ _ j).trans ?_
  rw [shapeCast_self]
  exact Cert.Products.sum_contr_eq d2 rfl rfl rfl rfl d2_l0 d2_r1 x0 x1 j

/-- The bias-and-ReLU body: the block's entry plus the bias row's, then the maximum with the zero word. -/
theorem pay1_apply (x0 : Vec Ideal S10000x64 .f32) (x1 : Vec Ideal S1x64 .f32) (p : Fin 10000) (q : Fin 64) :
    k1_pay1 (F := Ideal) x0 x1 (ix2 p q) = max (x0 (ix2 p q) + x1 (ix2 (0 : Fin 1) q)) (Ideal.ofBits .f32 0x00000000#32) := by
  unfold k1_pay1
  rw [maximumf_apply, addf_apply, shapeCast_self, shapeCast_self, broadcastTo_1b_ab_apply]
  rfl

/-- The bias body: the block's entry plus the bias row's. -/
theorem pay3_apply (x0 : Vec Ideal S10000x64 .f32) (x1 : Vec Ideal S1x64 .f32) (p : Fin 10000) (q : Fin 64) :
    k3_pay1 (F := Ideal) x0 x1 (ix2 p q) = x0 (ix2 p q) + x1 (ix2 (0 : Fin 1) q) := by
  unfold k3_pay1
  rw [addf_apply, shapeCast_self, shapeCast_self, broadcastTo_1b_ab_apply]

end Cert.KernelIdeal.Body

end
-- ==== Proof.Region0.lean ====
/-
  The first product's region as one function of its two input arrays.

  The grid has ten points; point t stages rows [10000·t, 10000·t + 10000) of the node features (all 128 lanes), the
  whole 128 × 64 weight matrix, and writes the same rows of the product. The body multiplies the block by the weights
  into a zero accumulator, so the block point t writes back is block t of ONE whole-array function `G` (entry (r, j)
  is the sum over k of x(r, k) · w(k, j)); the ten blocks tile the 100000 rows, hence the product array ends holding
  `G` of the arrays the region was entered with.
-/
import proofs.«173187_j10840497455789_1_alg».proof.Proof.Gen.KernelIdeal.Frame
import proofs.«173187_j10840497455789_1_alg».proof.Proof.Bodies

set_option maxRecDepth 16384

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- Rows times columns: entry (r, j) is the sum over the 128 contracted features of x(r, k) · w(k, j). -/
def G (x : S100000x128.Idx → EReal) (w : S128x64.Idx → EReal) : S100000x64.Idx → EReal :=
  fun i => ∑ k : Fin 128, x (ix2 (i 0) k) * w (ix2 k (i 1))

/-- The printed index maps over the ten grid points: the input rows move with the output rows, the weight matrix and
    every lane block stay at block 0, and the row-block index is at most 9. -/
theorem index_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Every one of the ten row blocks is some grid point's. -/
theorem index_onto : ∀ q0 : Fin 10, ∃ t : Fin cfg0.N, win0_2.index t = ![q0.val, 0] :=
  (by decide +kernel : ∀ q0 : Fin 10, ∃ t : Fin grid0.N, win0_2.index t = ![q0.val, 0])

/-- What grid point `t` writes back is block `t` of `G` of the two arrays as the region finds them. -/
theorem flushed_eq (c : Dev nD) (t : Fin cfg0.N) :
    (dat0 V c).flushed 2 t = ((cfg0.win 2).blk t).view.read (Elt Ideal) (G (V c main_arg0) (V c main_arg2)) := by
  show (cfg0.win 2).cut (grid0.coords t) ((dat0 V c).after 2 t) = _
  rw [after0_2]
  unfold out0_2
  rw [View.canon_unit_zero zero_offsets]
  simp only [View.ld_unit_zero (S := S10000x128) zero_offsets, View.ld_unit_zero (S := S128x64) zero_offsets]
  obtain ⟨e0, e1, e2, e3, e4, e5⟩ := index_facts t
  funext j
  obtain ⟨p, q, rfl⟩ : ∃ (p : Fin 10000) (q : Fin 64), j = ix2 p q := ⟨j 0, j 1, eq_ix2 j⟩
  refine (Cert.KernelIdeal.Body.pay0_apply _ _ (ix2 p q)).trans ?_
  exact (show ∀ (A : S100000x128.Idx → EReal) (B : S128x64.Idx → EReal),
      ∑ k : Fin 128, A (((cfg0.win 0).blk t).view.emb (ix2 p k)) * B (((cfg0.win 1).blk t).view.emb (ix2 k q))
        = G A B (((cfg0.win 2).blk t).view.emb (ix2 p q)) from
    fun A B => by
      unfold G
      refine Finset.sum_congr rfl fun k _ => ?_
      have h0 : ((cfg0.win 0).blk t).view.emb (ix2 p k) = ix2 ((((cfg0.win 2).blk t).view.emb (ix2 p q)) 0) k := by
        funext a; apply Fin.ext
        match a with
        | ⟨0, _⟩ => show win0_0.index t (0 : Fin 2) * 10000 + 1 * p.val = win0_2.index t (0 : Fin 2) * 10000 + 1 * p.val; omega
        | ⟨1, _⟩ => show win0_0.index t (1 : Fin 2) * 128 + 1 * k.val = k.val; omega
      have h1 : ((cfg0.win 1).blk t).view.emb (ix2 k q) = ix2 k ((((cfg0.win 2).blk t).view.emb (ix2 p q)) 1) := by
        funext a; apply Fin.ext
        match a with
        | ⟨0, _⟩ => show win0_1.index t (0 : Fin 2) * 128 + 1 * k.val = k.val; omega
        | ⟨1, _⟩ => show win0_1.index t (1 : Fin 2) * 64 + 1 * q.val = win0_2.index t (1 : Fin 2) * 64 + 1 * q.val; omega
      rw [h0, h1]; rfl) (V c main_arg0) (V c main_arg2)

/-- An index of the array is in grid point `t`'s block iff each coordinate is in the block's range on its axis. -/
theorem mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v32).slice (win0_2.rect t)).set ↔ _
  rw [View.set_slice_whole, Rect.mem_set_unit]
  exact Iff.rfl

/-- The ten row blocks tile the array: row r lies in block r / 10000. -/
theorem cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := index_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- The output array after the region: `G` of the two arrays the region was entered with. -/
theorem final (c : Dev nD) : (dat0 V c).arrAt 2 cfg0.N = G (V c main_arg0) (V c main_arg2) :=
  (dat0 V c).arrAt_eq_of_cover 2 _ (fun t _ => flushed_eq V c t) cover

end Cert.KernelIdeal.Region0

end
-- ==== Proof.Region1.lean ====
/-
  The bias-and-ReLU region (the second pallas_call) as one function of its two input arrays.

  The grid has ten points; point t stages rows [10000·t, 10000·t + 10000) of the aggregated features, the whole
  one-row bias, and writes the same rows of the hidden layer. The body adds the bias row to every row of the block and
  takes the maximum with the zero word, so the block point t writes back is block t of ONE whole-array function `G`
  (entry (r, j) is max(a(r, j) + b(0, j), 0)); the ten blocks tile the 100000 rows, hence the hidden-layer array ends
  holding `G` of the arrays the region was entered with.
-/
import proofs.«173187_j10840497455789_1_alg».proof.Proof.Gen.KernelIdeal.Frame
import proofs.«173187_j10840497455789_1_alg».proof.Proof.Bodies

set_option maxRecDepth 16384

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The aggregated rows plus the bias row, then the maximum with the zero word, entry by entry. -/
def G (a : S100000x64.Idx → EReal) (b : S1x64.Idx → EReal) : S100000x64.Idx → EReal :=
  fun i => max (a i + b (ix2 (0 : Fin 1) (i 1))) (Ideal.ofBits .f32 0x00000000#32)

/-- The printed index maps over the ten grid points: the input rows move with the output rows, the bias row and
    every lane block stay at block 0, and the row-block index is at most 9. -/
theorem index_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 9 :=
  (by decide +kernel : ∀ t : Fin grid1.N, _)

/-- Every one of the ten row blocks is some grid point's. -/
theorem index_onto : ∀ q0 : Fin 10, ∃ t : Fin cfg1.N, win1_2.index t = ![q0.val, 0] :=
  (by decide +kernel : ∀ q0 : Fin 10, ∃ t : Fin grid1.N, win1_2.index t = ![q0.val, 0])

/-- What grid point `t` writes back is block `t` of `G` of the two arrays as the region finds them. -/
theorem flushed_eq (c : Dev nD) (t : Fin cfg1.N) :
    (dat1 V c).flushed 2 t = ((cfg1.win 2).blk t).view.read (Elt Ideal) (G (V c main_v45) (V c main_v46)) := by
  show (cfg1.win 2).cut (grid1.coords t) ((dat1 V c).after 2 t) = _
  rw [after1_2]
  unfold out1_2
  rw [View.canon_unit_zero zero_offsets]
  simp only [View.ld_unit_zero (S := S10000x64) zero_offsets, View.ld_unit_zero (S := S1x64) zero_offsets]
  obtain ⟨e0, e1, e2, e3, e4, e5⟩ := index_facts t
  funext j
  obtain ⟨p, q, rfl⟩ : ∃ (p : Fin 10000) (q : Fin 64), j = ix2 p q := ⟨j 0, j 1, eq_ix2 j⟩
  refine (Cert.KernelIdeal.Body.pay1_apply _ _ p q).trans ?_
  have h0 : ((cfg1.win 0).blk t).view.emb (ix2 p q) = ((cfg1.win 2).blk t).view.emb (ix2 p q) := by
    funext a; apply Fin.ext
    match a with
    | ⟨0, _⟩ => show win1_0.index t (0 : Fin 2) * 10000 + 1 * p.val = win1_2.index t (0 : Fin 2) * 10000 + 1 * p.val; omega
    | ⟨1, _⟩ => show win1_0.index t (1 : Fin 2) * 64 + 1 * q.val = win1_2.index t (1 : Fin 2) * 64 + 1 * q.val; omega
  have h1 : ((cfg1.win 1).blk t).view.emb (ix2 (0 : Fin 1) q) = ix2 (0 : Fin 1) ((((cfg1.win 2).blk t).view.emb (ix2 p q)) 1) := by
    funext a; apply Fin.ext
    match a with
    | ⟨0, _⟩ => show win1_1.index t (0 : Fin 2) * 1 + 1 * 0 = 0; omega
    | ⟨1, _⟩ => show win1_1.index t (1 : Fin 2) * 64 + 1 * q.val = win1_2.index t (1 : Fin 2) * 64 + 1 * q.val; omega
  exact (show ∀ (A : S100000x64.Idx → EReal) (B : S1x64.Idx → EReal),
      max (A (((cfg1.win 0).blk t).view.emb (ix2 p q)) + B (((cfg1.win 1).blk t).view.emb (ix2 (0 : Fin 1) q))) (Ideal.ofBits .f32 0x00000000#32)
        = G A B (((cfg1.win 2).blk t).view.emb (ix2 p q)) from
    fun A B => by unfold G; rw [h0, h1]; rfl) (V c main_v45) (V c main_v46)

/-- An index of the array is in grid point `t`'s block iff each coordinate is in the block's range on its axis. -/
theorem mem_blk (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v47).slice (win1_2.rect t)).set ↔ _
  rw [View.set_slice_whole, Rect.mem_set_unit]
  exact Iff.rfl

/-- The ten row blocks tile the array: row r lies in block r / 10000. -/
theorem cover (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ := index_onto ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- The output array after the region: `G` of the two arrays the region was entered with. -/
theorem final (c : Dev nD) : (dat1 V c).arrAt 2 cfg1.N = G (V c main_v45) (V c main_v46) :=
  (dat1 V c).arrAt_eq_of_cover 2 _ (fun t _ => flushed_eq V c t) cover

end Cert.KernelIdeal.Region1

end
-- ==== Proof.Region2.lean ====
/-
  The second product's region as one function of its two input arrays.

  The grid has ten points; point t stages rows [10000·t, 10000·t + 10000) of the hidden layer (all 64 lanes), the
  whole 64 × 64 weight matrix, and writes the same rows of the product. The body multiplies the block by the weights
  into a zero accumulator, so the block point t writes back is block t of ONE whole-array function `G` (entry (r, j)
  is the sum over k of h(r, k) · w(k, j)); the ten blocks tile the 100000 rows, hence the product array ends holding
  `G` of the arrays the region was entered with.
-/
import proofs.«173187_j10840497455789_1_alg».proof.Proof.Gen.KernelIdeal.Frame
import proofs.«173187_j10840497455789_1_alg».proof.Proof.Bodies

set_option maxRecDepth 16384

noncomputable section

namespace Cert.KernelIdeal.Region2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- Rows times columns: entry (r, j) is the sum over the 64 contracted features of x(r, k) · w(k, j). -/
def G (x : S100000x64.Idx → EReal) (w : S64x64.Idx → EReal) : S100000x64.Idx → EReal :=
  fun i => ∑ k : Fin 64, x (ix2 (i 0) k) * w (ix2 k (i 1))

/-- The printed index maps over the ten grid points: the input rows move with the output rows, the weight matrix and
    every lane block stay at block 0, and the row-block index is at most 9. -/
theorem index_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) ≤ 9 :=
  (by decide +kernel : ∀ t : Fin grid2.N, _)

/-- Every one of the ten row blocks is some grid point's. -/
theorem index_onto : ∀ q0 : Fin 10, ∃ t : Fin cfg2.N, win2_2.index t = ![q0.val, 0] :=
  (by decide +kernel : ∀ q0 : Fin 10, ∃ t : Fin grid2.N, win2_2.index t = ![q0.val, 0])

/-- What grid point `t` writes back is block `t` of `G` of the two arrays as the region finds them. -/
theorem flushed_eq (c : Dev nD) (t : Fin cfg2.N) :
    (dat2 V c).flushed 2 t = ((cfg2.win 2).blk t).view.read (Elt Ideal) (G (V c main_v47) (V c main_arg4)) := by
  show (cfg2.win 2).cut (grid2.coords t) ((dat2 V c).after 2 t) = _
  rw [after2_2]
  unfold out2_2
  rw [View.canon_unit_zero zero_offsets]
  simp only [View.ld_unit_zero (S := S10000x64) zero_offsets, View.ld_unit_zero (S := S64x64) zero_offsets]
  obtain ⟨e0, e1, e2, e3, e4, e5⟩ := index_facts t
  funext j
  obtain ⟨p, q, rfl⟩ : ∃ (p : Fin 10000) (q : Fin 64), j = ix2 p q := ⟨j 0, j 1, eq_ix2 j⟩
  refine (Cert.KernelIdeal.Body.pay2_apply _ _ (ix2 p q)).trans ?_
  exact (show ∀ (A : S100000x64.Idx → EReal) (B : S64x64.Idx → EReal),
      ∑ k : Fin 64, A (((cfg2.win 0).blk t).view.emb (ix2 p k)) * B (((cfg2.win 1).blk t).view.emb (ix2 k q))
        = G A B (((cfg2.win 2).blk t).view.emb (ix2 p q)) from
    fun A B => by
      unfold G
      refine Finset.sum_congr rfl fun k _ => ?_
      have h0 : ((cfg2.win 0).blk t).view.emb (ix2 p k) = ix2 ((((cfg2.win 2).blk t).view.emb (ix2 p q)) 0) k := by
        funext a; apply Fin.ext
        match a with
        | ⟨0, _⟩ => show win2_0.index t (0 : Fin 2) * 10000 + 1 * p.val = win2_2.index t (0 : Fin 2) * 10000 + 1 * p.val; omega
        | ⟨1, _⟩ => show win2_0.index t (1 : Fin 2) * 64 + 1 * k.val = k.val; omega
      have h1 : ((cfg2.win 1).blk t).view.emb (ix2 k q) = ix2 k ((((cfg2.win 2).blk t).view.emb (ix2 p q)) 1) := by
        funext a; apply Fin.ext
        match a with
        | ⟨0, _⟩ => show win2_1.index t (0 : Fin 2) * 64 + 1 * k.val = k.val; omega
        | ⟨1, _⟩ => show win2_1.index t (1 : Fin 2) * 64 + 1 * q.val = win2_2.index t (1 : Fin 2) * 64 + 1 * q.val; omega
      rw [h0, h1]; rfl) (V c main_v47) (V c main_arg4)

/-- An index of the array is in grid point `t`'s block iff each coordinate is in the block's range on its axis. -/
theorem mem_blk (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v48).slice (win2_2.rect t)).set ↔ _
  rw [View.set_slice_whole, Rect.mem_set_unit]
  exact Iff.rfl

/-- The ten row blocks tile the array: row r lies in block r / 10000. -/
theorem cover (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ := index_onto ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 64 ≤ (i 1).val ∧ (i 1).val < win2_2.index t (1 : Fin 2) * 64 + 64; omega

/-- The output array after the region: `G` of the two arrays the region was entered with. -/
theorem final (c : Dev nD) : (dat2 V c).arrAt 2 cfg2.N = G (V c main_v47) (V c main_arg4) :=
  (dat2 V c).arrAt_eq_of_cover 2 _ (fun t _ => flushed_eq V c t) cover

end Cert.KernelIdeal.Region2

end
-- ==== Proof.Region3.lean ====
/-
  The bias region (the last pallas_call) as one function of its two input arrays.

  The grid has ten points; point t stages rows [10000·t, 10000·t + 10000) of the aggregated features, the whole
  one-row bias, and writes the same rows of the result. The body adds the bias row to every row of the block, so the
  block point t writes back is block t of ONE whole-array function `G` (entry (r, j) is a(r, j) + b(0, j)); the ten
  blocks tile the 100000 rows, hence the result array ends holding `G` of the arrays the region was entered with.
-/
import proofs.«173187_j10840497455789_1_alg».proof.Proof.Gen.KernelIdeal.Frame
import proofs.«173187_j10840497455789_1_alg».proof.Proof.Bodies

set_option maxRecDepth 16384

noncomputable section

namespace Cert.KernelIdeal.Region3

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The aggregated rows plus the bias row, entry by entry. -/
def G (a : S100000x64.Idx → EReal) (b : S1x64.Idx → EReal) : S100000x64.Idx → EReal :=
  fun i => a i + b (ix2 (0 : Fin 1) (i 1))

/-- The printed index maps over the ten grid points: the input rows move with the output rows, the bias row and
    every lane block stay at block 0, and the row-block index is at most 9. -/
theorem index_facts : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (1 : Fin 2) = 0
    ∧ win3_2.index t (0 : Fin 2) ≤ 9 :=
  (by decide +kernel : ∀ t : Fin grid3.N, _)

/-- Every one of the ten row blocks is some grid point's. -/
theorem index_onto : ∀ q0 : Fin 10, ∃ t : Fin cfg3.N, win3_2.index t = ![q0.val, 0] :=
  (by decide +kernel : ∀ q0 : Fin 10, ∃ t : Fin grid3.N, win3_2.index t = ![q0.val, 0])

/-- What grid point `t` writes back is block `t` of `G` of the two arrays as the region finds them. -/
theorem flushed_eq (c : Dev nD) (t : Fin cfg3.N) :
    (dat3 V c).flushed 2 t = ((cfg3.win 2).blk t).view.read (Elt Ideal) (G (V c main_v61) (V c main_v62)) := by
  show (cfg3.win 2).cut (grid3.coords t) ((dat3 V c).after 2 t) = _
  rw [after3_2]
  unfold out3_2
  rw [View.canon_unit_zero zero_offsets]
  simp only [View.ld_unit_zero (S := S10000x64) zero_offsets, View.ld_unit_zero (S := S1x64) zero_offsets]
  obtain ⟨e0, e1, e2, e3, e4, e5⟩ := index_facts t
  funext j
  obtain ⟨p, q, rfl⟩ : ∃ (p : Fin 10000) (q : Fin 64), j = ix2 p q := ⟨j 0, j 1, eq_ix2 j⟩
  refine (Cert.KernelIdeal.Body.pay3_apply _ _ p q).trans ?_
  have h0 : ((cfg3.win 0).blk t).view.emb (ix2 p q) = ((cfg3.win 2).blk t).view.emb (ix2 p q) := by
    funext a; apply Fin.ext
    match a with
    | ⟨0, _⟩ => show win3_0.index t (0 : Fin 2) * 10000 + 1 * p.val = win3_2.index t (0 : Fin 2) * 10000 + 1 * p.val; omega
    | ⟨1, _⟩ => show win3_0.index t (1 : Fin 2) * 64 + 1 * q.val = win3_2.index t (1 : Fin 2) * 64 + 1 * q.val; omega
  have h1 : ((cfg3.win 1).blk t).view.emb (ix2 (0 : Fin 1) q) = ix2 (0 : Fin 1) ((((cfg3.win 2).blk t).view.emb (ix2 p q)) 1) := by
    funext a; apply Fin.ext
    match a with
    | ⟨0, _⟩ => show win3_1.index t (0 : Fin 2) * 1 + 1 * 0 = 0; omega
    | ⟨1, _⟩ => show win3_1.index t (1 : Fin 2) * 64 + 1 * q.val = win3_2.index t (1 : Fin 2) * 64 + 1 * q.val; omega
  exact (show ∀ (A : S100000x64.Idx → EReal) (B : S1x64.Idx → EReal),
      A (((cfg3.win 0).blk t).view.emb (ix2 p q)) + B (((cfg3.win 1).blk t).view.emb (ix2 (0 : Fin 1) q))
        = G A B (((cfg3.win 2).blk t).view.emb (ix2 p q)) from
    fun A B => by unfold G; rw [h0, h1]; rfl) (V c main_v61) (V c main_v62)

/-- An index of the array is in grid point `t`'s block iff each coordinate is in the block's range on its axis. -/
theorem mem_blk (t : Fin cfg3.N) (i : S100000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v63).slice (win3_2.rect t)).set ↔ _
  rw [View.set_slice_whole, Rect.mem_set_unit]
  exact Iff.rfl

/-- The ten row blocks tile the array: row r lies in block r / 10000. -/
theorem cover (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  obtain ⟨t, ht⟩ := index_onto ⟨(i 0).val / 10000, by omega⟩
  have q0 : win3_2.index t (0 : Fin 2) = (i 0).val / 10000 := congrFun ht 0
  have q1 : win3_2.index t (1 : Fin 2) = 0 := congrFun ht 1
  refine ⟨t, flush3_2 t, ?_⟩
  rw [mem_blk]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 64 ≤ (i 1).val ∧ (i 1).val < win3_2.index t (1 : Fin 2) * 64 + 64; omega

/-- The output array after the region: `G` of the two arrays the region was entered with. -/
theorem final (c : Dev nD) : (dat3 V c).arrAt 2 cfg3.N = G (V c main_v61) (V c main_v62) :=
  (dat3 V c).arrAt_eq_of_cover 2 _ (fun t _ => flushed_eq V c t) cover

end Cert.KernelIdeal.Region3

end
-- ==== Proof.Layers.lean ====
/-
  Each region's whole-array function is the reference's piece of a layer, on the extended reals.

  The host's product of an [M, K] array with a [K, N] array, read at (r, j), is the sum over k of x(r, k) · w(k, j): the
  function the two product regions leave. The host adds a bias by laying its 64 entries out as 100000 equal rows and
  adding entry by entry; the kernel's epilogues add row 0 of the bias kept as a one-row array: both are a(r, j) + b(j).
  The host's ReLU is the maximum with an array of zero words, the kernel's the maximum with the zero word.
-/
import proofs.«173187_j10840497455789_1_alg».proof.Proof.ReferenceTerms
import proofs.«173187_j10840497455789_1_alg».proof.Proof.Bodies
import proofs.«173187_j10840497455789_1_alg».proof.Proof.Region0
import proofs.«173187_j10840497455789_1_alg».proof.Proof.Region1
import proofs.«173187_j10840497455789_1_alg».proof.Proof.Region2
import proofs.«173187_j10840497455789_1_alg».proof.Proof.Region3

noncomputable section

namespace Cert.Layers

open Idealize.ShloMosaic Idealize.ShloMosaic.ValueIdx
open Cert.ReferenceIdeal.Terms

local notation "e1" => Cert.ReferenceIdeal.dot_S100000x128_S128x64_S100000x64_1_0_0_1_n_n
local notation "e2" => Cert.ReferenceIdeal.dot_S100000x64_S64x64_S100000x64_1_0_0_1_n_n

theorem e1_l0 (j : Cert.ReferenceIdeal.S100000x64.Idx) (k : (e1).contr.Idx) : ((e1).lhsIdx j k 0).val = (j 0).val := by
  unfold DotDims.lhsIdx
  rw [dif_neg (show ¬(0 : Fin Cert.ReferenceIdeal.S100000x128.rank) ∈ (e1).lhsBatch by decide), dif_pos (show (0 : Fin Cert.ReferenceIdeal.S100000x128.rank) ∈ (e1).lhsNonContracting by decide)]
  rfl
theorem e1_r1 (j : Cert.ReferenceIdeal.S100000x64.Idx) (k : (e1).contr.Idx) : ((e1).rhsIdx j k 1).val = (j 1).val := by
  unfold DotDims.rhsIdx
  rw [dif_neg (show ¬(1 : Fin Cert.ReferenceIdeal.S128x64.rank) ∈ (e1).rhsBatch by decide), dif_pos (show (1 : Fin Cert.ReferenceIdeal.S128x64.rank) ∈ (e1).rhsNonContracting by decide)]
  rfl
theorem e2_l0 (j : Cert.ReferenceIdeal.S100000x64.Idx) (k : (e2).contr.Idx) : ((e2).lhsIdx j k 0).val = (j 0).val := by
  unfold DotDims.lhsIdx
  rw [dif_neg (show ¬(0 : Fin Cert.ReferenceIdeal.S100000x64.rank) ∈ (e2).lhsBatch by decide), dif_pos (show (0 : Fin Cert.ReferenceIdeal.S100000x64.rank) ∈ (e2).lhsNonContracting by decide)]
  rfl
theorem e2_r1 (j : Cert.ReferenceIdeal.S100000x64.Idx) (k : (e2).contr.Idx) : ((e2).rhsIdx j k 1).val = (j 1).val := by
  unfold DotDims.rhsIdx
  rw [dif_neg (show ¬(1 : Fin Cert.ReferenceIdeal.S64x64.rank) ∈ (e2).rhsBatch by decide), dif_pos (show (1 : Fin Cert.ReferenceIdeal.S64x64.rank) ∈ (e2).rhsNonContracting by decide)]
  rfl

/-- The host's first product is the first product region's function. -/
theorem dot1_eq (x : Cert.KernelIdeal.S100000x128.Idx → EReal) (w : Cert.KernelIdeal.S128x64.Idx → EReal) :
    dot1 (F := Ideal) x w = Cert.KernelIdeal.Region0.G x w := by
  funext j
  unfold dot1 Cert.KernelIdeal.Region0.G
  simp only [Host.dotGeneral]
  rw [Ideal.dotGeneral_apply]
  exact Cert.Products.sum_contr_eq e1 rfl rfl rfl rfl e1_l0 e1_r1 x w j

/-- The host's second product is the second product region's function. -/
theorem dot2_eq (x : Cert.KernelIdeal.S100000x64.Idx → EReal) (w : Cert.KernelIdeal.S64x64.Idx → EReal) :
    dot2 (F := Ideal) x w = Cert.KernelIdeal.Region2.G x w := by
  funext j
  unfold dot2 Cert.KernelIdeal.Region2.G
  simp only [Host.dotGeneral]
  rw [Ideal.dotGeneral_apply]
  exact Cert.Products.sum_contr_eq e2 rfl rfl rfl rfl e2_l0 e2_r1 x w j

/-- The bias laid out as 100000 equal rows, at (p, q): the bias's entry q. -/
theorem biasRows_apply (b : Cert.KernelIdeal.S64.Idx → EReal) (p : Fin 100000) (q : Fin 64) :
    biasRows (F := Ideal) b (ix2 p q) = b (ix1 q) := by
  unfold biasRows
  rw [broadcastInDim_apply _ _ _ (ix2 p q) (ix2 (0 : Fin 1) q) (fun a => match a with | ⟨0, _⟩ => rfl | ⟨1, _⟩ => rfl)]
  exact broadcastInDim_apply _ _ _ (ix2 (0 : Fin 1) q) (ix1 q) (fun a => match a with | ⟨0, _⟩ => rfl)

/-- The array of zero words, at any index: the zero word. -/
theorem zeros_apply (i : Cert.KernelIdeal.S100000x64.Idx) : zeros (F := Ideal) i = Ideal.ofBits .f32 0x00000000#32 := by
  unfold zeros
  exact broadcastInDim_apply _ _ _ i ix0 (fun a => a.elim0)

/-- The host's bias add is the bias region's function of the aggregated rows and the bias kept as a one-row array. -/
theorem bias_eq (a : Cert.KernelIdeal.S100000x64.Idx → EReal) (b : Cert.KernelIdeal.S64.Idx → EReal) :
    addf (F := Ideal) (φ := .f32) a (biasRows (F := Ideal) b) = Cert.KernelIdeal.Region3.G a (shapeCast Cert.KernelIdeal.S1x64 b Cert.KernelIdeal.Gen.shapeCasts_S64_S1x64) := by
  funext i
  obtain ⟨p, q, rfl⟩ : ∃ (p : Fin 100000) (q : Fin 64), i = ix2 p q := ⟨i 0, i 1, eq_ix2 i⟩
  unfold Cert.KernelIdeal.Region3.G
  rw [addf_apply, biasRows_apply, shapeCast_a_1a_apply]

/-- The host's bias add and ReLU is the bias-and-ReLU region's function. -/
theorem bias_relu_eq (a : Cert.KernelIdeal.S100000x64.Idx → EReal) (b : Cert.KernelIdeal.S64.Idx → EReal) :
    maximumf (F := Ideal) (φ := .f32) (addf (F := Ideal) (φ := .f32) a (biasRows (F := Ideal) b)) (zeros (F := Ideal)) = Cert.KernelIdeal.Region1.G a (shapeCast Cert.KernelIdeal.S1x64 b Cert.KernelIdeal.Gen.shapeCasts_S64_S1x64) := by
  funext i
  obtain ⟨p, q, rfl⟩ : ∃ (p : Fin 100000) (q : Fin 64), i = ix2 p q := ⟨i 0, i 1, eq_ix2 i⟩
  unfold Cert.KernelIdeal.Region1.G
  rw [maximumf_apply, addf_apply, biasRows_apply, zeros_apply, shapeCast_a_1a_apply]

end Cert.Layers

end
-- ==== Proof.KernelValue.lean ====
/-
  The kernel's result as a function of its arguments: the reference's composition.

  Walking the segment boundaries backwards from the last one: the result is the bias region's function of the second
  aggregation and the second bias row; the second aggregation gathers, scales and adds up the second product, which is
  the second product region's function of the hidden layer and the second weight matrix; the hidden layer is the
  bias-and-ReLU region's function of the first aggregation and the first bias row; the first aggregation gathers,
  scales and adds up the first product, which is the first product region's function of the node features and the
  first weight matrix. The edge lists, the per-message scale and the arguments are found by every segment as the host
  operations before the first region left them. Each region's function is the reference's piece of a layer, so the
  whole is the reference's composition of the six arguments.
-/
import proofs.«173187_j10840497455789_1_alg».proof.Proof.KernelHost
import proofs.«173187_j10840497455789_1_alg».proof.Proof.Layers

set_option maxRecDepth 16384

noncomputable section

namespace Cert.KernelIdeal.Whole

open Cert.KernelIdeal Cert.KernelIdeal.Gen Cert.KernelIdeal.Host Idealize.ShloMosaic Idealize.ShloMosaic.TcCoe Idealize.SL.Sem
open Cert.ReferenceIdeal.Terms (whole)

/-- The kernel's composition, over its own copies of the host pieces: the four regions' functions around the two
    aggregations. -/
def wholeK (x : S100000x128.Idx → EReal) (e : (⟨S2x3200000, .i32⟩ : BufTy).Contents (Elt Ideal)) (w1 : S128x64.Idx → EReal) (b1 : S64.Idx → EReal)
    (w2 : S64x64.Idx → EReal) (b2 : S64.Idx → EReal) : S100000x64.Idx → EReal :=
  Region3.G
    (aggK (F := Ideal) (dstK e) (srcK e) (normK e)
      (Region2.G
        (Region1.G (aggK (F := Ideal) (dstK e) (srcK e) (normK e) (Region0.G x w1)) (shapeCast S1x64 b1 shapeCasts_S64_S1x64))
        w2))
    (shapeCast S1x64 b2 shapeCasts_S64_S1x64)

/-- The kernel's composition is the reference's. -/
theorem wholeK_eq (x : S100000x128.Idx → EReal) (e : (⟨S2x3200000, .i32⟩ : BufTy).Contents (Elt Ideal)) (w1 : S128x64.Idx → EReal) (b1 : S64.Idx → EReal)
    (w2 : S64x64.Idx → EReal) (b2 : S64.Idx → EReal) :
    wholeK x e w1 b1 w2 b2 = whole (F := Ideal) x e w1 b1 w2 b2 := by
  unfold wholeK whole
  rw [Cert.Layers.dot1_eq, Cert.Layers.bias_relu_eq, Cert.Layers.dot2_eq, Cert.Layers.bias_eq,
    aggK_eq, aggK_eq, dstK_eq, srcK_eq, normK_eq]

variable (m : (ℓ : Loc nD τ sig) → Buf (Elt Ideal) ℓ) (ρ : Dev nD → PrngReg)

/-- The first product, when the first region is left. -/
theorem first_product (c : Dev nD) :
    W4 m ρ c (Proc.devRef .tc main_v32) = Region0.G (m ((c.tc : Thread nD τ).loc main_arg0)) (m ((c.tc : Thread nD τ).loc main_arg2)) :=
  (W4_arr m ρ c 2).trans ((Region0.final (V3 m ρ) c).trans (congrArg₂ Region0.G (W3_arg0 m ρ c) (W3_arg2 m ρ c)))

/-- The first aggregation, when the bias-and-ReLU region is entered. -/
theorem first_agg (c : Dev nD) :
    W5 m ρ c (Proc.devRef .tc main_v45)
      = aggK (dstK (m ((c.tc : Thread nD τ).loc main_arg1))) (srcK (m ((c.tc : Thread nD τ).loc main_arg1))) (normK (m ((c.tc : Thread nD τ).loc main_arg1)))
          (Region0.G (m ((c.tc : Thread nD τ).loc main_arg0)) (m ((c.tc : Thread nD τ).loc main_arg2))) := by
  refine (stretch1_agg (W4 m ρ c)).trans ?_
  rw [W4_keeps m ρ c main_v6 (by decide), W4_keeps m ρ c main_v3 (by decide), W4_keeps m ρ c main_v31 (by decide),
    first_product, W3_dst, W3_src, W3_norm]

/-- The first bias row, when the bias-and-ReLU region is entered. -/
theorem first_bias (c : Dev nD) :
    W5 m ρ c (Proc.devRef .tc main_v46) = shapeCast S1x64 (m ((c.tc : Thread nD τ).loc main_arg3)) shapeCasts_S64_S1x64 := by
  refine (stretch1_bias (W4 m ρ c)).trans ?_
  rw [W4_keeps m ρ c main_arg3 (by decide), W3_arg3]

/-- The hidden layer, when the bias-and-ReLU region is left. -/
theorem hidden (c : Dev nD) :
    W6 m ρ c (Proc.devRef .tc main_v47)
      = Region1.G (aggK (dstK (m ((c.tc : Thread nD τ).loc main_arg1))) (srcK (m ((c.tc : Thread nD τ).loc main_arg1))) (normK (m ((c.tc : Thread nD τ).loc main_arg1)))
          (Region0.G (m ((c.tc : Thread nD τ).loc main_arg0)) (m ((c.tc : Thread nD τ).loc main_arg2)))) (shapeCast S1x64 (m ((c.tc : Thread nD τ).loc main_arg3)) shapeCasts_S64_S1x64) :=
  (W6_arr m ρ c 2).trans ((Region1.final (V5 m ρ) c).trans (congrArg₂ Region1.G (first_agg m ρ c) (first_bias m ρ c)))

/-- The second product, when the second product's region is left. -/
theorem second_product (c : Dev nD) :
    W7 m ρ c (Proc.devRef .tc main_v48)
      = Region2.G (Region1.G (aggK (dstK (m ((c.tc : Thread nD τ).loc main_arg1))) (srcK (m ((c.tc : Thread nD τ).loc main_arg1))) (normK (m ((c.tc : Thread nD τ).loc main_arg1)))
          (Region0.G (m ((c.tc : Thread nD τ).loc main_arg0)) (m ((c.tc : Thread nD τ).loc main_arg2)))) (shapeCast S1x64 (m ((c.tc : Thread nD τ).loc main_arg3)) shapeCasts_S64_S1x64))
          (m ((c.tc : Thread nD τ).loc main_arg4)) :=
  (W7_arr m ρ c 2).trans ((Region2.final (V6 m ρ) c).trans (congrArg₂ Region2.G (hidden m ρ c)
    ((W6_keeps m ρ c main_arg4 (by decide) (by decide) stretch1_keeps_arg4).trans (W3_arg4 m ρ c))))

/-- The second aggregation, when the last region is entered. -/
theorem second_agg (c : Dev nD) :
    W8 m ρ c (Proc.devRef .tc main_v61)
      = aggK (dstK (m ((c.tc : Thread nD τ).loc main_arg1))) (srcK (m ((c.tc : Thread nD τ).loc main_arg1))) (normK (m ((c.tc : Thread nD τ).loc main_arg1)))
          (Region2.G (Region1.G (aggK (dstK (m ((c.tc : Thread nD τ).loc main_arg1))) (srcK (m ((c.tc : Thread nD τ).loc main_arg1))) (normK (m ((c.tc : Thread nD τ).loc main_arg1)))
            (Region0.G (m ((c.tc : Thread nD τ).loc main_arg0)) (m ((c.tc : Thread nD τ).loc main_arg2)))) (shapeCast S1x64 (m ((c.tc : Thread nD τ).loc main_arg3)) shapeCasts_S64_S1x64))
            (m ((c.tc : Thread nD τ).loc main_arg4))) := by
  refine (stretch3_agg (W7 m ρ c)).trans ?_
  rw [W7_keeps m ρ c main_v6 (by decide) (by decide) (by decide) stretch1_keeps_v6,
    W7_keeps m ρ c main_v3 (by decide) (by decide) (by decide) stretch1_keeps_v3,
    W7_keeps m ρ c main_v31 (by decide) (by decide) (by decide) stretch1_keeps_v31,
    second_product, W3_dst, W3_src, W3_norm]

/-- The second bias row, when the last region is entered. -/
theorem second_bias (c : Dev nD) :
    W8 m ρ c (Proc.devRef .tc main_v62) = shapeCast S1x64 (m ((c.tc : Thread nD τ).loc main_arg5)) shapeCasts_S64_S1x64 := by
  refine (stretch3_bias (W7 m ρ c)).trans ?_
  rw [W7_keeps m ρ c main_arg5 (by decide) (by decide) (by decide) stretch1_keeps_arg5, W3_arg5]

/-- The result buffer at the last boundary is the reference's composition of the six arguments. -/
theorem out_eq (c : Dev nD) :
    W9 m ρ c (Proc.devRef .tc main_v63)
      = whole (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  ((W9_arr m ρ c 2).trans ((Region3.final (V8 m ρ) c).trans (congrArg₂ Region3.G (second_agg m ρ c) (second_bias m ρ c)))).trans
    (wholeK_eq _ _ _ _ _ _)

end Cert.KernelIdeal.Whole

end
-- ==== Proof.lean ====
/-
  Two graph-convolution layers on 100000 nodes: the kernel against its jnp reference, equal on the extended reals.

  Both programs add a self loop per node to the 3.2 million edges, count the messages arriving at each node, scale
  each message by d(source)^(-1/2) · d(target)^(-1/2), and run two layers: features times a weight matrix, rows
  gathered at the message sources, scaled, added up at the targets, a bias added; the maximum with zero between the
  layers. The kernel computes the two products and the two bias epilogues in four pallas_calls over ten blocks of
  10000 rows each (the operands narrowed to bf16 before the products, which changes nothing on the extended reals) and
  leaves the gathers, the scatter-adds and the normalization to the same host operations the reference uses.

  * Each pallas_call's output array is ONE function of its input arrays (Region0 … Region3): the ten blocks written
    back are blocks of that function and tile the array.
  * Each such function is the reference's piece of a layer (Layers): a product as a sum over the contracted features, a
    bias added as a row, the maximum with the zero word.
  * The host operations between the pallas_calls are the reference's own (KernelHost), so the kernel's result is the
    reference's composition of the six arguments (KernelValue), which is the term the reference's run ends at
    (ReferenceTerms).
  No law of arithmetic beyond reading both sides index by index is needed, so the finiteness of the inputs is never used.
  The idealization rewrote no operation: `preserves` has nothing to state.
-/
import proofs.«173187_j10840497455789_1_alg».proof.Defs
import proofs.«173187_j10840497455789_1_alg».proof.Proof.Gen.Kernel
import proofs.«173187_j10840497455789_1_alg».proof.Proof.Gen.Kernel.Skeleton
import proofs.«173187_j10840497455789_1_alg».proof.Proof.Gen.Kernel.Launch
import proofs.«173187_j10840497455789_1_alg».proof.Proof.Gen.Kernel.Points
import proofs.«173187_j10840497455789_1_alg».proof.Proof.Gen.Kernel.Frame
import proofs.«173187_j10840497455789_1_alg».proof.Proof.Gen.KernelIdeal
import proofs.«173187_j10840497455789_1_alg».proof.Proof.Gen.KernelIdeal.Skeleton
import proofs.«173187_j10840497455789_1_alg».proof.Proof.Gen.KernelIdeal.Launch
import proofs.«173187_j10840497455789_1_alg».proof.Proof.Gen.KernelIdeal.Points
import proofs.«173187_j10840497455789_1_alg».proof.Proof.Gen.KernelIdeal.Frame
import proofs.«173187_j10840497455789_1_alg».proof.Proof.Gen.ReferenceIdeal
import proofs.«173187_j10840497455789_1_alg».proof.Proof.Gen.Pre_finite_inputs
import proofs.«173187_j10840497455789_1_alg».proof.Proof.ReferenceRun
import proofs.«173187_j10840497455789_1_alg».proof.Proof.ReferenceTerms
import proofs.«173187_j10840497455789_1_alg».proof.Proof.KernelRun
import proofs.«173187_j10840497455789_1_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and leaves its arguments as launched: its run, with the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- The idealized kernel's run ends with its result at the reference's composition of the arguments. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v63)
          = Cert.ReferenceIdeal.Terms.whole (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)) :=
  (θ_run Cert.KernelIdeal.defs _ _).mono
    (fun r h c => ⟨(h c).1.trans (Cert.KernelIdeal.Whole.out_eq m ρ c), (h c).2⟩)
    (Cert.KernelIdeal.Out.run_out m ρ)

/-- From memories that agree on the six arguments both programs end with the same result: the one composition, of the
    same arguments. -/
theorem algebraic : Cert.algebraic_KernelIdeal_ReferenceIdeal := by
  intro m ρ m' ρ' _ hagree
  refine ⟨fun c => Cert.ReferenceIdeal.Terms.whole (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    kernel_run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.Terms.res_eq, (hagree c).1, (hagree c).2.1, (hagree c).2.2.1, (hagree c).2.2.2.1, (hagree c).2.2.2.2.1,
    (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
